-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16384x64 : Shape := ⟨3, ![16, 16384, 64]⟩
abbrev S16x64x256 : Shape := ⟨3, ![16, 64, 256]⟩
abbrev S16x256 : Shape := ⟨2, ![16, 256]⟩
abbrev S16x256x256 : Shape := ⟨3, ![16, 256, 256]⟩
abbrev S16x256x784 : Shape := ⟨3, ![16, 256, 784]⟩
abbrev S16x784 : Shape := ⟨2, ![16, 784]⟩
abbrev S_ : Shape := ⟨0, ![]⟩

class Facts : Prop where
  bcast_S_S16x16384x64 : S_.BroadcastsInDim S16x16384x64 (![] : Fin 0 → Fin S16x16384x64.rank)
  reducesTo_S16x16384x64_S_d0_1_2 : S16x16384x64.ReducesTo [0, 1, 2] S_
  h_S_ : 0 < S_.numel
  bcast_S_S16x64x256 : S_.BroadcastsInDim S16x64x256 (![] : Fin 0 → Fin S16x64x256.rank)
  reducesTo_S16x64x256_S_d0_1_2 : S16x64x256.ReducesTo [0, 1, 2] S_
  bcast_S_S16x256 : S_.BroadcastsInDim S16x256 (![] : Fin 0 → Fin S16x256.rank)
  reducesTo_S16x256_S_d0_1 : S16x256.ReducesTo [0, 1] S_
  bcast_S_S16x256x256 : S_.BroadcastsInDim S16x256x256 (![] : Fin 0 → Fin S16x256x256.rank)
  reducesTo_S16x256x256_S_d0_1_2 : S16x256x256.ReducesTo [0, 1, 2] S_
  bcast_S_S16x256x784 : S_.BroadcastsInDim S16x256x784 (![] : Fin 0 → Fin S16x256x784.rank)
  reducesTo_S16x256x784_S_d0_1_2 : S16x256x784.ReducesTo [0, 1, 2] S_
  bcast_S_S16x784 : S_.BroadcastsInDim S16x784 (![] : Fin 0 → Fin S16x784.rank)
  reducesTo_S16x784_S_d0_1 : S16x784.ReducesTo [0, 1] S_

variable [Facts]

def fn_part1 {F : FTy → Type} [FloatOps F] (main_arg4 : FVec F S16x256 .f32) (main_arg5 : FVec F S16x256x784 .f32) (main_arg6 : FVec F S16x784 .f32) (main_v13 : IVec S_ 1) (main_v16 : IVec S16x256x256 1) : IVec S_ 1 :=
  let main_c_5 : IVec S_ 1 := constantI S_ 1 1#1
  let main_v17 : IVec S_ 1 := (fun x v => Host.reduce IntOp.andi x v reducesTo_S16x256x256_S_d0_1_2 h_S_) main_v16 main_c_5
  let main_v18 : IVec S_ 1 := andi main_v13 main_v17
  let main_v19 : FVec F S16x256 .f32 := Host.absf main_arg4
  let main_cst_6 : FVec F S_ .f32 := constant S_ .f32 0x7F800000#32
  let main_v20 : FVec F S16x256 .f32 := broadcastInDim S16x256 ![] bcast_S_S16x256 main_cst_6
  let main_v21 : IVec S16x256 1 := cmpf .olt main_v19 main_v20
  let main_c_7 : IVec S_ 1 := constantI S_ 1 1#1
  let main_v22 : IVec S_ 1 := (fun x v => Host.reduce IntOp.andi x v reducesTo_S16x256_S_d0_1 h_S_) main_v21 main_c_7
  let main_v23 : IVec S_ 1 := andi main_v18 main_v22
  let main_v24 : FVec F S16x256x784 .f32 := Host.absf main_arg5
  let main_cst_8 : FVec F S_ .f32 := constant S_ .f32 0x7F800000#32
  let main_v25 : FVec F S16x256x784 .f32 := broadcastInDim S16x256x784 ![] bcast_S_S16x256x784 main_cst_8
  let main_v26 : IVec S16x256x784 1 := cmpf .olt main_v24 main_v25
  let main_c_9 : IVec S_ 1 := constantI S_ 1 1#1
  let main_v27 : IVec S_ 1 := (fun x v => Host.reduce IntOp.andi x v reducesTo_S16x256x784_S_d0_1_2 h_S_) main_v26 main_c_9
  let main_v28 : IVec S_ 1 := andi main_v23 main_v27
  let main_v29 : FVec F S16x784 .f32 := Host.absf main_arg6
  let main_cst_10 : FVec F S_ .f32 := constant S_ .f32 0x7F800000#32
  let main_v30 : FVec F S16x784 .f32 := broadcastInDim S16x784 ![] bcast_S_S16x784 main_cst_10
  let main_v31 : IVec S16x784 1 := cmpf .olt main_v29 main_v30
  let main_c_11 : IVec S_ 1 := constantI S_ 1 1#1
  let main_v32 : IVec S_ 1 := (fun x v => Host.reduce IntOp.andi x v reducesTo_S16x784_S_d0_1 h_S_) main_v31 main_c_11
  let main_v33 : IVec S_ 1 := andi main_v28 main_v32
  main_v33

def fn {F : FTy → Type} [FloatOps F] (main_arg0 : FVec F S16x16384x64 .f32) (main_arg1 : FVec F S16x64x256 .f32) (main_arg2 : FVec F S16x256 .f32) (main_arg3 : FVec F S16x256x256 .f32) (main_arg4 : FVec F S16x256 .f32) (main_arg5 : FVec F S16x256x784 .f32) (main_arg6 : FVec F S16x784 .f32) : IVec S_ 1 :=
  let main_v0 : FVec F S16x16384x64 .f32 := Host.absf main_arg0
  let main_cst : FVec F S_ .f32 := constant S_ .f32 0x7F800000#32
  let main_v1 : FVec F S16x16384x64 .f32 := broadcastInDim S16x16384x64 ![] bcast_S_S16x16384x64 main_cst
  let main_v2 : IVec S16x16384x64 1 := cmpf .olt main_v0 main_v1
  let main_c : IVec S_ 1 := constantI S_ 1 1#1
  let main_v3 : IVec S_ 1 := (fun x v => Host.reduce IntOp.andi x v reducesTo_S16x16384x64_S_d0_1_2 h_S_) main_v2 main_c
  let main_v4 : FVec F S16x64x256 .f32 := Host.absf main_arg1
  let main_cst_0 : FVec F S_ .f32 := constant S_ .f32 0x7F800000#32
  let main_v5 : FVec F S16x64x256 .f32 := broadcastInDim S16x64x256 ![] bcast_S_S16x64x256 main_cst_0
  let main_v6 : IVec S16x64x256 1 := cmpf .olt main_v4 main_v5
  let main_c_1 : IVec S_ 1 := constantI S_ 1 1#1
  let main_v7 : IVec S_ 1 := (fun x v => Host.reduce IntOp.andi x v reducesTo_S16x64x256_S_d0_1_2 h_S_) main_v6 main_c_1
  let main_v8 : IVec S_ 1 := andi main_v3 main_v7
  let main_v9 : FVec F S16x256 .f32 := Host.absf main_arg2
  let main_cst_2 : FVec F S_ .f32 := constant S_ .f32 0x7F800000#32
  let main_v10 : FVec F S16x256 .f32 := broadcastInDim S16x256 ![] bcast_S_S16x256 main_cst_2
  let main_v11 : IVec S16x256 1 := cmpf .olt main_v9 main_v10
  let main_c_3 : IVec S_ 1 := constantI S_ 1 1#1
  let main_v12 : IVec S_ 1 := (fun x v => Host.reduce IntOp.andi x v reducesTo_S16x256_S_d0_1 h_S_) main_v11 main_c_3
  let main_v13 : IVec S_ 1 := andi main_v8 main_v12
  let main_v14 : FVec F S16x256x256 .f32 := Host.absf main_arg3
  let main_cst_4 : FVec F S_ .f32 := constant S_ .f32 0x7F800000#32
  let main_v15 : FVec F S16x256x256 .f32 := broadcastInDim S16x256x256 ![] bcast_S_S16x256x256 main_cst_4
  let main_v16 : IVec S16x256x256 1 := cmpf .olt main_v14 main_v15
  fn_part1 (F := F) main_arg4 main_arg5 main_arg6 main_v13 main_v16
-- ==== Kernel.lean ====
abbrev S16x16384x64 : Shape := ⟨3, ![16, 16384, 64]⟩
abbrev S16x64x256 : Shape := ⟨3, ![16, 64, 256]⟩
abbrev S16x256 : Shape := ⟨2, ![16, 256]⟩
abbrev S16x256x256 : Shape := ⟨3, ![16, 256, 256]⟩
abbrev S16x256x784 : Shape := ⟨3, ![16, 256, 784]⟩
abbrev S16x784 : Shape := ⟨2, ![16, 784]⟩
abbrev S16x1x256 : Shape := ⟨3, ![16, 1, 256]⟩
abbrev S16x1x784 : Shape := ⟨3, ![16, 1, 784]⟩
abbrev S16x16384x784 : Shape := ⟨3, ![16, 16384, 784]⟩
abbrev S1x4096x64 : Shape := ⟨3, ![1, 4096, 64]⟩
abbrev S1x64x256 : Shape := ⟨3, ![1, 64, 256]⟩
abbrev S1x1x256 : Shape := ⟨3, ![1, 1, 256]⟩
abbrev S1x256x256 : Shape := ⟨3, ![1, 256, 256]⟩
abbrev S1x256x784 : Shape := ⟨3, ![1, 256, 784]⟩
abbrev S1x1x784 : Shape := ⟨3, ![1, 1, 784]⟩
abbrev S1x4096x784 : Shape := ⟨3, ![1, 4096, 784]⟩
abbrev S4096x64 : Shape := ⟨2, ![4096, 64]⟩
abbrev S64x256 : Shape := ⟨2, ![64, 256]⟩
abbrev S256 : Shape := ⟨1, ![256]⟩
abbrev S4096x256 : Shape := ⟨2, ![4096, 256]⟩
abbrev S1x256 : Shape := ⟨2, ![1, 256]⟩
abbrev S256x256 : Shape := ⟨2, ![256, 256]⟩
abbrev S256x784 : Shape := ⟨2, ![256, 784]⟩
abbrev S784 : Shape := ⟨1, ![784]⟩
abbrev S4096x784 : Shape := ⟨2, ![4096, 784]⟩
abbrev S1x784 : Shape := ⟨2, ![1, 784]⟩

abbrev nBuf : Space → Nat
  | .hbm => 13
  | .vmem => 10
  | .smem => 0
  | _ => 0

abbrev bufTy : (tb : Table) → Fin (tcTables nBuf tb) → BufTy
  | .hbm, ⟨0, _⟩ => ⟨S16x16384x64, .f32⟩
  | .hbm, ⟨1, _⟩ => ⟨S16x64x256, .f32⟩
  | .hbm, ⟨2, _⟩ => ⟨S16x256, .f32⟩
  | .hbm, ⟨3, _⟩ => ⟨S16x256x256, .f32⟩
  | .hbm, ⟨4, _⟩ => ⟨S16x256, .f32⟩
  | .hbm, ⟨5, _⟩ => ⟨S16x256x784, .f32⟩
  | .hbm, ⟨6, _⟩ => ⟨S16x784, .f32⟩
  | .hbm, ⟨7, _⟩ => ⟨S16x1x256, .f32⟩
  | .hbm, ⟨8, _⟩ => ⟨S16x1x256, .f32⟩
  | .hbm, ⟨9, _⟩ => ⟨S16x1x784, .f32⟩
  | .hbm, ⟨10, _⟩ => ⟨S16x256x256, .bf16⟩
  | .hbm, ⟨11, _⟩ => ⟨S16x256x784, .bf16⟩
  | .hbm, ⟨12, _⟩ => ⟨S16x16384x784, .f32⟩
  | .local _ .vmem, ⟨0, _⟩ => ⟨S1x4096x64, .f32⟩
  | .local _ .vmem, ⟨1, _⟩ => ⟨S1x4096x64, .f32⟩
  | .local _ .vmem, ⟨2, _⟩ => ⟨S1x64x256, .f32⟩
  | .local _ .vmem, ⟨3, _⟩ => ⟨S1x1x256, .f32⟩
  | .local _ .vmem, ⟨4, _⟩ => ⟨S1x256x256, .bf16⟩
  | .local _ .vmem, ⟨5, _⟩ => ⟨S1x1x256, .f32⟩
  | .local _ .vmem, ⟨6, _⟩ => ⟨S1x256x784, .bf16⟩
  | .local _ .vmem, ⟨7, _⟩ => ⟨S1x1x784, .f32⟩
  | .local _ .vmem, ⟨8, _⟩ => ⟨S1x4096x784, .f32⟩
  | .local _ .vmem, ⟨9, _⟩ => ⟨S1x4096x784, .f32⟩
  | _, _ => ⟨S16x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x256x784 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1x784 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S1x4096x784 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S16x256_S16x1x256 : S16x256.ShapeCasts S16x1x256
  shapeCasts_S16x784_S16x1x784 : S16x784.ShapeCasts S16x1x784
  bitsLt_bf16_f32 : FTy.bits .bf16 < FTy.bits .f32
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  inb_S1x1x256_S1x1x256_0_0_0 : ∀ a, (![0, 0, 0] : Fin 3 → Nat) a + S1x1x256.size a ≤ S1x1x256.size a
  h_S1x1x256 : 0 < S1x1x256.numel
  shapeCasts_S1x1x256_S256 : S1x1x256.ShapeCasts S256
  shapeCasts_S256_S1x256 : S256.ShapeCasts S1x256
  broadcasts_S1x256_S4096x256 : S1x256.Broadcasts S4096x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x256x784_S1x256x784_0_0_0 : ∀ a, (![0, 0, 0] : Fin 3 → Nat) a + S1x256x784.size a ≤ S1x256x784.size a
  h_S1x256x784 : 0 < S1x256x784.numel
  shapeCasts_S1x256x784_S256x784 : S1x256x784.ShapeCasts S256x784
  inb_S1x1x784_S1x1x784_0_0_0 : ∀ a, (![0, 0, 0] : Fin 3 → Nat) a + S1x1x784.size a ≤ S1x1x784.size a
  h_S1x1x784 : 0 < S1x1x784.numel
  shapeCasts_S1x1x784_S784 : S1x1x784.ShapeCasts S784
  shapeCasts_S784_S1x784 : S784.ShapeCasts S1x784
  broadcasts_S1x784_S4096x784 : S1x784.Broadcasts S4096x784
  inb_S1x4096x784_S1x4096x784_0_0_0 : ∀ a, (![0, 0, 0] : Fin 3 → Nat) a + S1x4096x784.size a ≤ S1x4096x784.size a
  h_S1x4096x784 : 0 < S1x4096x784.numel
  shapeCasts_S1x4096x784_S4096x784 : S1x4096x784.ShapeCasts S4096x784
  shapeCasts_S4096x784_S1x4096x784 : S4096x784.ShapeCasts S1x4096x784
  dot_S4096x64_S64x256_S4096x256_1_0_0_1_n_n_wf : DotDims.WF S4096x64 S64x256 S4096x256 [1] [0] [0] [1] [] []
  dot_S4096x256_S256x256_S4096x256_1_0_0_1_n_n_wf : DotDims.WF S4096x256 S256x256 S4096x256 [1] [0] [0] [1] [] []
  dot_S4096x256_S256x784_S4096x784_1_0_0_1_n_n_wf : DotDims.WF S4096x256 S256x784 S4096x784 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S16x16384x64.size a
  hwx0_0 : ∀ i : grid0.Coords, EltTy.bits .f32 = 32 ∨ (Rect.block (s := S16x16384x64) S1x4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64x256.size a ≤ S16x64x256.size a
  hwx0_1 : ∀ i : grid0.Coords, EltTy.bits .f32 = 32 ∨ (Rect.block (s := S16x64x256) S1x64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S16x1x256.size a
  hwx0_2 : ∀ i : grid0.Coords, EltTy.bits .f32 = 32 ∨ (Rect.block (s := S16x1x256) S1x1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S16x256x256.size a
  hwx0_3 : ∀ i : grid0.Coords, EltTy.bits .bf16 = 32 ∨ (Rect.block (s := S16x256x256) S1x256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S16x1x256.size a
  hwx0_4 : ∀ i : grid0.Coords, EltTy.bits .f32 = 32 ∨ (Rect.block (s := S16x1x256) S1x1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256x784.size a ≤ S16x256x784.size a
  hwx0_5 : ∀ i : grid0.Coords, EltTy.bits .bf16 = 32 ∨ (Rect.block (s := S16x256x784) S1x256x784.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1x784.size a ≤ S16x1x784.size a
  hwx0_6 : ∀ i : grid0.Coords, EltTy.bits .f32 = 32 ∨ (Rect.block (s := S16x1x784) S1x1x784.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x4096x784.size a ≤ S16x16384x784.size a
  hwx0_7 : ∀ i : grid0.Coords, EltTy.bits .f32 = 32 ∨ (Rect.block (s := S16x16384x784) S1x4096x784.size (cc0_transform_7 i) (hinb0_7 i)).WholeWords (EltTy.packing .f32)

variable [Facts₀]

def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x784_S4096x784_1_0_0_1_n_n : DotDims S4096x256 S256x784 S4096x784 where
  lhsContracting := [1]
  rhsContracting := [0]
  lhsNonContracting := [0]
  rhsNonContracting := [1]
  lhsBatch := []
  rhsBatch := []
  wf := dot_S4096x256_S256x784_S4096x784_1_0_0_1_n_n_wf

abbrev win0_0 : Pipeline.Window sig grid0 :=
  Pipeline.Window.ofSpec (Memref.whole main_arg0) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256x784.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1x784.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x4096x784.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x16384x64 : Shape := ⟨3, ![16, 16384, 64]⟩
abbrev S16x64x256 : Shape := ⟨3, ![16, 64, 256]⟩
abbrev S16x256 : Shape := ⟨2, ![16, 256]⟩
abbrev S16x256x256 : Shape := ⟨3, ![16, 256, 256]⟩
abbrev S16x256x784 : Shape := ⟨3, ![16, 256, 784]⟩
abbrev S16x784 : Shape := ⟨2, ![16, 784]⟩
abbrev S16x16384x256 : Shape := ⟨3, ![16, 16384, 256]⟩
abbrev S16x1x256 : Shape := ⟨3, ![16, 1, 256]⟩
abbrev S_ : Shape := ⟨0, ![]⟩
abbrev S16x16384x784 : Shape := ⟨3, ![16, 16384, 784]⟩
abbrev S16x1x784 : Shape := ⟨3, ![16, 1, 784]⟩

abbrev nBuf : Space → Nat
  | .hbm => 33
  | .vmem => 0
  | .smem => 0
  | _ => 0

abbrev bufTy : (tb : Table) → Fin (tcTables nBuf tb) → BufTy
  | .hbm, ⟨0, _⟩ => ⟨S16x16384x64, .f32⟩
  | .hbm, ⟨1, _⟩ => ⟨S16x64x256, .f32⟩
  | .hbm, ⟨2, _⟩ => ⟨S16x256, .f32⟩
  | .hbm, ⟨3, _⟩ => ⟨S16x256x256, .f32⟩
  | .hbm, ⟨4, _⟩ => ⟨S16x256, .f32⟩
  | .hbm, ⟨5, _⟩ => ⟨S16x256x784, .f32⟩
  | .hbm, ⟨6, _⟩ => ⟨S16x784, .f32⟩
  | .hbm, ⟨7, _⟩ => ⟨S16x16384x256, .f32⟩
  | .hbm, ⟨8, _⟩ => ⟨S16x1x256, .f32⟩
  | .hbm, ⟨9, _⟩ => ⟨S16x16384x256, .f32⟩
  | .hbm, ⟨10, _⟩ => ⟨S16x16384x256, .f32⟩
  | .hbm, ⟨11, _⟩ => ⟨S_, .f32⟩
  | .hbm, ⟨12, _⟩ => ⟨S16x16384x256, .f32⟩
  | .hbm, ⟨13, _⟩ => ⟨S16x16384x256, .f32⟩
  | .hbm, ⟨14, _⟩ => ⟨S16x16384x256, .f32⟩
  | .hbm, ⟨15, _⟩ => ⟨S16x1x256, .f32⟩
  | .hbm, ⟨16, _⟩ => ⟨S16x16384x256, .f32⟩
  | .hbm, ⟨17, _⟩ => ⟨S16x16384x256, .f32⟩
  | .hbm, ⟨18, _⟩ => ⟨S_, .f32⟩
  | .hbm, ⟨19, _⟩ => ⟨S16x16384x256, .f32⟩
  | .hbm, ⟨20, _⟩ => ⟨S16x16384x256, .f32⟩
  | .hbm, ⟨21, _⟩ => ⟨S16x16384x784, .f32⟩
  | .hbm, ⟨22, _⟩ => ⟨S16x1x784, .f32⟩
  | .hbm, ⟨23, _⟩ => ⟨S16x16384x784, .f32⟩
  | .hbm, ⟨24, _⟩ => ⟨S16x16384x784, .f32⟩
  | .hbm, ⟨25, _⟩ => ⟨S16x16384x784, .f32⟩
  | .hbm, ⟨26, _⟩ => ⟨S16x16384x784, .f32⟩
  | .hbm, ⟨27, _⟩ => ⟨S_, .f32⟩
  | .hbm, ⟨28, _⟩ => ⟨S16x16384x784, .f32⟩
  | .hbm, ⟨29, _⟩ => ⟨S16x16384x784, .f32⟩
  | .hbm, ⟨30, _⟩ => ⟨S_, .f32⟩
  | .hbm, ⟨31, _⟩ => ⟨S16x16384x784, .f32⟩
  | .hbm, ⟨32, _⟩ => ⟨S16x16384x784, .f32⟩
  | _, _ => ⟨S16x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]

class Facts₀ : Prop where
  bcast_S16x256_S16x1x256_0_2 : S16x256.BroadcastsInDim S16x1x256 (![0, 2] : Fin 2 → Fin S16x1x256.rank)
  bcast_S16x1x256_S16x16384x256_0_1_2 : S16x1x256.BroadcastsInDim S16x16384x256 (![0, 1, 2] : Fin 3 → Fin S16x16384x256.rank)
  bcast_S_S16x16384x256 : S_.BroadcastsInDim S16x16384x256 (![] : Fin 0 → Fin S16x16384x256.rank)
  bcast_S16x784_S16x1x784_0_2 : S16x784.BroadcastsInDim S16x1x784 (![0, 2] : Fin 2 → Fin S16x1x784.rank)
  bcast_S16x1x784_S16x16384x784_0_1_2 : S16x1x784.BroadcastsInDim S16x16384x784 (![0, 1, 2] : Fin 3 → Fin S16x16384x784.rank)
  bcast_S_S16x16384x784 : S_.BroadcastsInDim S16x16384x784 (![] : Fin 0 → Fin S16x16384x784.rank)
  dot_S16x16384x64_S16x64x256_S16x16384x256_2_1_1_2_0_0_wf : DotDims.WF S16x16384x64 S16x64x256 S16x16384x256 [2] [1] [1] [2] [0] [0]
  dot_S16x16384x256_S16x256x256_S16x16384x256_2_1_1_2_0_0_wf : DotDims.WF S16x16384x256 S16x256x256 S16x16384x256 [2] [1] [1] [2] [0] [0]
  dot_S16x16384x256_S16x256x784_S16x16384x784_2_1_1_2_0_0_wf : DotDims.WF S16x16384x256 S16x256x784 S16x16384x784 [2] [1] [1] [2] [0] [0]

variable [Facts₀]

def dot_S16x16384x64_S16x64x256_S16x16384x256_2_1_1_2_0_0 : DotDims S16x16384x64 S16x64x256 S16x16384x256 where
  lhsContracting := [2]
  rhsContracting := [1]
  lhsNonContracting := [1]
  rhsNonContracting := [2]
  lhsBatch := [0]
  rhsBatch := [0]
  wf := dot_S16x16384x64_S16x64x256_S16x16384x256_2_1_1_2_0_0_wf
def dot_S16x16384x256_S16x256x256_S16x16384x256_2_1_1_2_0_0 : DotDims S16x16384x256 S16x256x256 S16x16384x256 where
  lhsContracting := [2]
  rhsContracting := [1]
  lhsNonContracting := [1]
  rhsNonContracting := [2]
  lhsBatch := [0]
  rhsBatch := [0]
  wf := dot_S16x16384x256_S16x256x256_S16x16384x256_2_1_1_2_0_0_wf
def dot_S16x16384x256_S16x256x784_S16x16384x784_2_1_1_2_0_0 : DotDims S16x16384x256 S16x256x784 S16x16384x784 where
  lhsContracting := [2]
  rhsContracting := [1]
  lhsNonContracting := [1]
  rhsNonContracting := [2]
  lhsBatch := [0]
  rhsBatch := [0]
  wf := dot_S16x16384x256_S16x256x784_S16x16384x784_2_1_1_2_0_0_wf

class Facts : Prop extends Facts₀ where

variable [Facts]
-- ==== Proof.MlpSpec.lean ====
/-
  What the mixture of decoders computes, entry by entry.

  For mixture `n`, sample `r` and output coordinate `x`:
    first hidden layer   h₁ j = max (Σ z, s (n, r, z) · W₁ (n, z, j) + b₁ (n, j)) 0
    second hidden layer  h₂ k = max (Σ j, h₁ j · W₂ (n, j, k) + b₂ (n, k)) 0
    output               σ (Σ k, h₂ k · W₃ (n, k, x) + b₃ (n, x)),   σ y = 1 / (1 + e⁻ʸ).
  Over the extended reals the sums are plain finite sums, a change of float format is the identity, and the zero the
  layers are clamped at is the zero word's value.
-/
import Idealize.ShloMosaic.Lib.ValueIdx
import Idealize.ShloMosaic.PureOps.Ideal

noncomputable section

namespace Cert.MlpSpec

open Idealize.ShloMosaic Idealize.ShloMosaic.ValueIdx

/-- A three-axis array of extended reals. -/
abbrev Arr3 (a b c : Nat) : Type := (⟨3, ![a, b, c]⟩ : Shape).Idx → EReal
/-- A two-axis array of extended reals. -/
abbrev Arr2 (a b : Nat) : Type := (⟨2, ![a, b]⟩ : Shape).Idx → EReal

/-- The value the layers are clamped at from below. -/
abbrev floor0 : EReal := Ideal.ofBits .f32 0x00000000#32

/-- The first hidden layer of mixture `n` on sample `r`, at unit `j`. -/
def hid1 (s : Arr3 16 16384 64) (W1 : Arr3 16 64 256) (b1 : Arr2 16 256)
    (n : Fin 16) (r : Fin 16384) (j : Fin 256) : EReal :=
  max ((∑ z : Fin 64, s (ix3 n r z) * W1 (ix3 n z j)) + b1 (ix2 n j)) floor0

/-- The second hidden layer, at unit `k`. -/
def hid2 (s : Arr3 16 16384 64) (W1 : Arr3 16 64 256) (b1 : Arr2 16 256) (W2 : Arr3 16 256 256) (b2 : Arr2 16 256)
    (n : Fin 16) (r : Fin 16384) (k : Fin 256) : EReal :=
  max ((∑ j : Fin 256, hid1 s W1 b1 n r j * W2 (ix3 n j k)) + b2 (ix2 n k)) floor0

/-- The output layer before the sigmoid, at coordinate `x`. -/
def pre (s : Arr3 16 16384 64) (W1 : Arr3 16 64 256) (b1 : Arr2 16 256) (W2 : Arr3 16 256 256) (b2 : Arr2 16 256)
    (W3 : Arr3 16 256 784) (b3 : Arr2 16 784) (n : Fin 16) (r : Fin 16384) (x : Fin 784) : EReal :=
  (∑ k : Fin 256, hid2 s W1 b1 W2 b2 n r k * W3 (ix3 n k x)) + b3 (ix2 n x)

/-- The whole result array: the sigmoid of the output layer at every `(n, r, x)`. -/
def G (s : Arr3 16 16384 64) (W1 : Arr3 16 64 256) (b1 : Arr2 16 256) (W2 : Arr3 16 256 256) (b2 : Arr2 16 256)
    (W3 : Arr3 16 256 784) (b3 : Arr2 16 784) : Arr3 16 16384 784 :=
  fun i => Ideal.logistic (pre s W1 b1 W2 b2 W3 b3 (i 0) (i 1) (i 2))

/-- `G` at an index written by its coordinates. -/
theorem G_apply (s : Arr3 16 16384 64) (W1 : Arr3 16 64 256) (b1 : Arr2 16 256) (W2 : Arr3 16 256 256) (b2 : Arr2 16 256)
    (W3 : Arr3 16 256 784) (b3 : Arr2 16 784) (n : Fin 16) (r : Fin 16384) (x : Fin 784) :
    G s W1 b1 W2 b2 W3 b3 (ix3 n r x) = Ideal.logistic (pre s W1 b1 W2 b2 W3 b3 n r x) := rfl

end Cert.MlpSpec

end
-- ==== Proof.RefValue.lean ====
/-
  The reference computes the specification.

  The reference is three batched contractions, each followed by the mixture's bias row laid along the samples, the first
  two clamped at zero, and the sigmoid spelt `1 / (1 + e⁻ʸ)`.  Read one operation at a time its result at `(n, r, x)` is
  `MlpSpec.G` there: each contraction is the plain sum over the contracted axis with the mixture `n` held fixed on both
  sides, the two broadcasts of a bias read the array at `(n, j)`, and the sigmoid's two ones are the number one.
-/
import proofs.«178637_j68487548502138_2_alg».proof.Proof.Gen.ReferenceIdeal.Read
import proofs.«178637_j68487548502138_2_alg».proof.Proof.MlpSpec
import Idealize.ShloMosaic.PureOps.IdealRules

noncomputable section

namespace Cert.ReferenceIdeal.RefValue

open Cert.ReferenceIdeal Cert.ReferenceIdeal.Read Cert.MlpSpec Idealize.ShloMosaic Idealize.ShloMosaic.ValueIdx

/-- The word of `1.0` denotes the number one. -/
theorem one_f32 : Ideal.ofBits .f32 0x3F800000#32 = 1 := IdealRules.sign_bit.ideal_onePat .f32

/-- The sigmoid as the host spells it is the sigmoid. -/
theorem sigmoid_spelt (y : EReal) :
    FloatOps.hostDivf (F := Ideal) (φ := .f32) (FloatOps.ofBits .f32 0x3F800000#32)
        (FloatOps.addf (FloatOps.ofBits .f32 0x3F800000#32) (FloatOps.hostUnary .exp (FloatOps.hostNegf y)))
      = Ideal.logistic y := by
  show Ideal.div (Ideal.ofBits .f32 0x3F800000#32) (Ideal.ofBits .f32 0x3F800000#32 + Ideal.exp (-y)) = Ideal.div 1 (1 + Ideal.exp (-y))
  rw [one_f32]

variable (x0 : Arr3 16 16384 64) (x1 : Arr3 16 64 256) (x2 : Arr2 16 256) (x3 : Arr3 16 256 256) (x4 : Arr2 16 256)
  (x5 : Arr3 16 256 784) (x6 : Arr2 16 784)

/-- The first clamped layer, at `(n, r, j)`. -/
theorem ref_hid1 (n : Fin 16) (r : Fin 16384) (j : Fin 256) :
    val_main_v4 (F := Ideal) x0 x1 x2 (ix3 n r j) = hid1 x0 x1 x2 n r j := by
  have el : ∀ z : Fin 64, lidx_main_v0 (ix3 n r j) z = ix3 n r z := fun z => funext fun a => Fin.ext (by
    match a with | ⟨0, _⟩ => rfl | ⟨1, _⟩ => rfl | ⟨2, _⟩ => rfl)
  have er : ∀ z : Fin 64, ridx_main_v0 (ix3 n r j) z = ix3 n z j := fun z => funext fun a => Fin.ext (by
    match a with | ⟨0, _⟩ => rfl | ⟨1, _⟩ => rfl | ⟨2, _⟩ => rfl)
  have eb : idx_main_v1 (idx_main_v2 (ix3 n r j)) = ix2 n j := funext fun a => Fin.ext (by
    match a with | ⟨0, _⟩ => rfl | ⟨1, _⟩ => rfl)
  rw [val_main_v4_apply, val_main_v3_apply, val_main_v0_apply, val_main_v2_apply, val_main_v1_apply,
    val_main_call0_v0_apply, val_main_call0_cst_apply]
  simp only [el, er, eb]
  rfl

/-- The second clamped layer, at `(n, r, k)`. -/
theorem ref_hid2 (n : Fin 16) (r : Fin 16384) (k : Fin 256) :
    val_main_v9 (F := Ideal) x0 x1 x2 x3 x4 (ix3 n r k) = hid2 x0 x1 x2 x3 x4 n r k := by
  have el : ∀ j : Fin 256, lidx_main_v5 (ix3 n r k) j = ix3 n r j := fun j => funext fun a => Fin.ext (by
    match a with | ⟨0, _⟩ => rfl | ⟨1, _⟩ => rfl | ⟨2, _⟩ => rfl)
  have er : ∀ j : Fin 256, ridx_main_v5 (ix3 n r k) j = ix3 n j k := fun j => funext fun a => Fin.ext (by
    match a with | ⟨0, _⟩ => rfl | ⟨1, _⟩ => rfl | ⟨2, _⟩ => rfl)
  have eb : idx_main_v6 (idx_main_v7 (ix3 n r k)) = ix2 n k := funext fun a => Fin.ext (by
    match a with | ⟨0, _⟩ => rfl | ⟨1, _⟩ => rfl)
  rw [val_main_v9_apply, val_main_v8_apply, val_main_v5_apply, val_main_v7_apply, val_main_v6_apply,
    val_main_call1_v0_apply, val_main_call1_cst_apply]
  simp only [el, er, eb, ref_hid1]
  rfl

/-- The output layer before the sigmoid, at `(n, r, x)`. -/
theorem ref_pre (n : Fin 16) (r : Fin 16384) (x : Fin 784) :
    val_main_v13 (F := Ideal) x0 x1 x2 x3 x4 x5 x6 (ix3 n r x) = pre x0 x1 x2 x3 x4 x5 x6 n r x := by
  have el : ∀ k : Fin 256, lidx_main_v10 (ix3 n r x) k = ix3 n r k := fun k => funext fun a => Fin.ext (by
    match a with | ⟨0, _⟩ => rfl | ⟨1, _⟩ => rfl | ⟨2, _⟩ => rfl)
  have er : ∀ k : Fin 256, ridx_main_v10 (ix3 n r x) k = ix3 n k x := fun k => funext fun a => Fin.ext (by
    match a with | ⟨0, _⟩ => rfl | ⟨1, _⟩ => rfl | ⟨2, _⟩ => rfl)
  have eb : idx_main_v11 (idx_main_v12 (ix3 n r x)) = ix2 n x := funext fun a => Fin.ext (by
    match a with | ⟨0, _⟩ => rfl | ⟨1, _⟩ => rfl)
  rw [val_main_v13_apply, val_main_v10_apply, val_main_v12_apply, val_main_v11_apply]
  simp only [el, er, eb, ref_hid2]
  rfl

/-- The reference's result array is the specification of its arguments. -/
theorem ref_eq : val_main_v19 (F := Ideal) x0 x1 x2 x3 x4 x5 x6 = G x0 x1 x2 x3 x4 x5 x6 := by
  funext i
  obtain ⟨n, r, x, rfl⟩ : ∃ (n : Fin 16) (r : Fin 16384) (x : Fin 784), i = ix3 n r x := ⟨i 0, i 1, i 2, eq_ix3 i⟩
  rw [val_main_v19_apply, val_main_v18_apply, val_main_cst_0_apply, val_main_v17_apply, val_main_v16_apply,
    val_main_cst_apply, val_main_v15_apply, val_main_v14_apply, ref_pre, G_apply]
  exact sigmoid_spelt _

end Cert.ReferenceIdeal.RefValue

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibDenseLayer.lean ====
/-
  A dense layer inside a kernel, read at an index.

  A kernel computes a layer on a block of `K` rows as a product of the block `[K, N]` with the weights laid out
  `[N, Q]`, into a zero accumulator, plus the bias, one row `[1, Q]` laid along every row of the block; a clamp
  between two constants may follow.  Over the extended reals entry `(p, q)` of the result is
  `Σ n, X (p, n) * Wt (n, q) + bias (0, q)`, clamped.
-/
import proofs.«178637_j68487548502138_2_alg».proof.Proof.LibDenseBlock
import Idealize.ShloMosaic.Lib.ValueLayout

noncomputable section

namespace Idealize.ShloMosaic.DenseLayer

open Idealize.ShloMosaic Idealize.ShloMosaic.ValueIdx Idealize.ShloMosaic.DenseBlock

variable {K N Q : Nat} (wf : DotDims.WF ⟨2, ![K, N]⟩ ⟨2, ![N, Q]⟩ ⟨2, ![K, Q]⟩ [1] [0] [0] [1] [] [])

/-- Entry `(p, q)` of `X · Wt + bias`, the bias one row laid along every row. -/
theorem affine_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (p : Fin K) (q : Fin Q) :
    addf (matmul (mmDims K N Q wf) none X Wt (constant ⟨2, ![K, Q]⟩ .f32 0x00000000#32))
        (broadcastTo ⟨2, ![K, Q]⟩ bias hb) (ix2 p q)
      = (∑ n : Fin N, X (ix2 p n) * Wt (ix2 n q)) + bias (ix2 (0 : Fin 1) q) := by
  show FloatOps.matmul (mmDims K N Q wf) none X Wt (constant ⟨2, ![K, Q]⟩ .f32 0x00000000#32) (ix2 p q)
      + broadcastTo ⟨2, ![K, Q]⟩ bias hb (ix2 p q) = _
  rw [matmul_zero_apply wf X Wt p q, broadcastTo_1b_ab_apply bias hb p q]

/-- The same, clamped from below by the splat of `lo` and then from above by the splat of `hi`. -/
theorem affine_clamped_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (lo hi : BitVec 32)
    (p : Fin K) (q : Fin Q) :
    minimumf (broadcast ⟨2, ![K, Q]⟩ (Scalar.ofBits (F := Ideal) .f32 hi))
        (maximumf (broadcast ⟨2, ![K, Q]⟩ (Scalar.ofBits (F := Ideal) .f32 lo))
          (addf (matmul (mmDims K N Q wf) none X Wt (constant ⟨2, ![K, Q]⟩ .f32 0x00000000#32))
            (broadcastTo ⟨2, ![K, Q]⟩ bias hb))) (ix2 p q)
      = min (Ideal.ofBits .f32 hi) (max (Ideal.ofBits .f32 lo)
          ((∑ n : Fin N, X (ix2 p n) * Wt (ix2 n q)) + bias (ix2 (0 : Fin 1) q))) := by
  show min (Ideal.ofBits .f32 hi) (max (Ideal.ofBits .f32 lo)
      (addf (matmul (mmDims K N Q wf) none X Wt (constant ⟨2, ![K, Q]⟩ .f32 0x00000000#32))
        (broadcastTo ⟨2, ![K, Q]⟩ bias hb) (ix2 p q))) = _
  rw [affine_apply wf X Wt bias hb p q]

end Idealize.ShloMosaic.DenseLayer

end
-- ==== Proof.LibDenseLoaded.lean ====
/-
  A dense layer on loaded blocks, read at an entry.

  A kernel loads its weights as a block `[1, N, Q]` and its bias as a block `[1, 1, Q]`: the leading unit axes are
  those of the arrays the blocks were cut from.  It drops the weights' unit axis, flattens the bias to `[Q]` and stands
  it up again as the one row `[1, Q]`, multiplies a `[K, N]` block by the weights into a zero accumulator and adds the
  bias row to every row.  Over the extended reals entry `(p, q)` of the result is
  `Σ n, X (p, n) * W (0, n, q) + b (0, 0, q)`.
-/
import proofs.«178637_j68487548502138_2_alg».proof.Proof.LibDenseLayer

noncomputable section

namespace Idealize.ShloMosaic.DenseLoaded

open Idealize.ShloMosaic Idealize.ShloMosaic.ValueIdx Idealize.ShloMosaic.DenseBlock Idealize.ShloMosaic.DenseLayer

/-- A `[1, 1, a]` array flattened to `[a]` reads, at `i`, the operand at `(0, 0, i)`. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- The bias block flattened and stood up as one row reads, at `(u, q)`, the block at `(0, 0, q)`. -/
theorem bias_row_apply {α : Type} {Q : ℕ} (b : (⟨3, ![1, 1, Q]⟩ : Shape).Idx → α)
    (h1 : (⟨3, ![1, 1, Q]⟩ : Shape).ShapeCasts ⟨1, ![Q]⟩) (h2 : (⟨1, ![Q]⟩ : Shape).ShapeCasts ⟨2, ![1, Q]⟩)
    (u : Fin 1) (q : Fin Q) :
    shapeCast ⟨2, ![1, Q]⟩ (shapeCast ⟨1, ![Q]⟩ b h1) h2 (ix2 u q) = b (ix3 (0 : Fin 1) (0 : Fin 1) q) :=
  (shapeCast_a_1a_apply _ h2 u q).trans (shapeCast_11a_a_apply b h1 q)

variable {K N Q : Nat} (wf : DotDims.WF ⟨2, ![K, N]⟩ ⟨2, ![N, Q]⟩ ⟨2, ![K, Q]⟩ [1] [0] [0] [1] [] [])

/-- Entry `(p, q)` of `X · W + b` with the weights and the bias as loaded blocks. -/
theorem layer_apply {φ₁ φ₂ : FTy} (X : FVec Ideal ⟨2, ![K, N]⟩ φ₁) (W : FVec Ideal ⟨3, ![1, N, Q]⟩ φ₂)
    (b : FVec Ideal ⟨3, ![1, 1, Q]⟩ .f32)
    (hW : (⟨3, ![1, N, Q]⟩ : Shape).ShapeCasts ⟨2, ![N, Q]⟩)
    (h1 : (⟨3, ![1, 1, Q]⟩ : Shape).ShapeCasts ⟨1, ![Q]⟩) (h2 : (⟨1, ![Q]⟩ : Shape).ShapeCasts ⟨2, ![1, Q]⟩)
    (hb : (⟨2, ![1, Q]⟩ : Shape).Broadcasts ⟨2, ![K, Q]⟩) (p : Fin K) (q : Fin Q) :
    addf (matmul (mmDims K N Q wf) none X (shapeCast ⟨2, ![N, Q]⟩ W hW) (constant ⟨2, ![K, Q]⟩ .f32 0x00000000#32))
        (broadcastTo ⟨2, ![K, Q]⟩ (shapeCast ⟨2, ![1, Q]⟩ (shapeCast ⟨1, ![Q]⟩ b h1) h2) hb) (ix2 p q)
      = (∑ n : Fin N, X (ix2 p n) * W (ix3 (0 : Fin 1) n q)) + b (ix3 (0 : Fin 1) (0 : Fin 1) q) := by
  refine (affine_apply wf X (shapeCast ⟨2, ![N, Q]⟩ W hW) _ hb p q).trans ?_
  rw [bias_row_apply b h1 h2 (0 : Fin 1) q]
  refine congrArg (· + b (ix3 (0 : Fin 1) (0 : Fin 1) q)) (Finset.sum_congr rfl fun n _ => ?_)
  rw [shapeCast_1ab_ab_apply W hW n q]

end Idealize.ShloMosaic.DenseLoaded

end
-- ==== Proof.KernelBody.lean ====
/-
  What the kernel's body computes on one block, entry by entry.

  On a block of 4096 samples of one mixture the body multiplies the samples by the mixture's first weight block, adds the
  bias row and clamps at zero; does the same with the second weight block; multiplies by the third and adds its bias row.
  The two hidden activations pass through a narrower float format on their way into the next product, which over the
  extended reals changes nothing.  So when every loaded block agrees, entry by entry, with the whole arrays at mixture
  `n` and sample `R`, entry `(r, x)` of the body's value before the sigmoid is the specification's output layer at
  `(n, R, x)`.
-/
import proofs.«178637_j68487548502138_2_alg».proof.Proof.Gen.KernelIdeal.Skeleton
import proofs.«178637_j68487548502138_2_alg».proof.Proof.LibDenseLoaded
import proofs.«178637_j68487548502138_2_alg».proof.Proof.MlpSpec

noncomputable section

namespace Cert.KernelIdeal.Body

open Cert.KernelIdeal Cert.KernelIdeal.Gen Cert.MlpSpec
open Idealize.ShloMosaic Idealize.ShloMosaic.ValueIdx Idealize.ShloMosaic.DenseLoaded

/-- The body's value before the sigmoid at `(r, x)`, from blocks that agree with the arrays at mixture `n`, sample `R`. -/
theorem pre_of_blocks
    (A0 : Arr3 16 16384 64) (A1 : Arr3 16 64 256) (A2 : Arr2 16 256) (A3 : Arr3 16 256 256) (A4 : Arr2 16 256)
    (A5 : Arr3 16 256 784) (A6 : Arr2 16 784)
    (P0 : FVec Ideal S1x4096x64 .f32) (P1 : FVec Ideal S1x64x256 .f32) (P2 : FVec Ideal S1x1x256 .f32)
    (P3 : FVec Ideal S1x256x256 .bf16) (P4 : FVec Ideal S1x1x256 .f32) (P5 : FVec Ideal S1x256x784 .bf16)
    (P6 : FVec Ideal S1x1x784 .f32)
    (n : Fin 16) (R : Fin 16384) (r : Fin 4096)
    (h0 : ∀ z : Fin 64, P0 (ix3 (0 : Fin 1) r z) = A0 (ix3 n R z))
    (h1 : ∀ (z : Fin 64) (j : Fin 256), P1 (ix3 (0 : Fin 1) z j) = A1 (ix3 n z j))
    (h2 : ∀ j : Fin 256, P2 (ix3 (0 : Fin 1) (0 : Fin 1) j) = A2 (ix2 n j))
    (h3 : ∀ j k : Fin 256, P3 (ix3 (0 : Fin 1) j k) = A3 (ix3 n j k))
    (h4 : ∀ k : Fin 256, P4 (ix3 (0 : Fin 1) (0 : Fin 1) k) = A4 (ix2 n k))
    (h5 : ∀ (k : Fin 256) (x : Fin 784), P5 (ix3 (0 : Fin 1) k x) = A5 (ix3 n k x))
    (h6 : ∀ x : Fin 784, P6 (ix3 (0 : Fin 1) (0 : Fin 1) x) = A6 (ix2 n x)) (x : Fin 784) :
    k0_pay2 (F := Ideal) P0 P1 P2 P3 P4 P5 P6 (ix2 r x) = pre A0 A1 A2 A3 A4 A5 A6 n R x := by
  unfold k0_pay2 pre
  -- the output layer: a product with the third weight block plus its bias row
  refine (layer_apply _ _ P5 P6 _ _ _ _ r x).trans
    (congrArg₂ (· + ·) (Finset.sum_congr rfl fun k _ => congrArg₂ (· * ·) ?_ (h5 k x)) (h6 x))
  -- the second hidden layer at (r, k): the clamp of a product with the second weight block plus its bias row
  show max (addf (F := Ideal) (φ := .f32) _ _ (ix2 r k) : EReal) floor0 = _
  unfold hid2
  refine congrArg (max · floor0) ?_
  refine (layer_apply _ _ P3 P4 _ _ _ _ r k).trans
    (congrArg₂ (· + ·) (Finset.sum_congr rfl fun j _ => congrArg₂ (· * ·) ?_ (h3 j k)) (h4 k))
  -- the first hidden layer at (r, j)
  show max (addf (F := Ideal) (φ := .f32) _ _ (ix2 r j) : EReal) floor0 = _
  unfold hid1
  refine congrArg (max · floor0) ?_
  refine (layer_apply _ _ P1 P2 _ _ _ _ r j).trans
    (congrArg₂ (· + ·) (Finset.sum_congr rfl fun z _ => congrArg₂ (· * ·) ?_ (h1 z j)) (h2 j))
  exact (shapeCast_1ab_ab_apply P0 _ r z).trans (h0 z)

end Cert.KernelIdeal.Body

end
-- ==== Proof.KernelArray.lean ====
/-
  From blocks to the whole result array.

  The grid has one point per mixture `n` and per quarter `q` of the samples.  At that point the body sees samples
  `4096·q … 4096·q + 4095` of mixture `n`, the mixture's three weight blocks and its three bias rows, and writes rows
  `4096·q …` of mixture `n` of the result.  The biases reach the kernel with a unit axis put in by the host and the last
  two weight arrays in a narrower float format; over the extended reals both are the argument arrays themselves.  Each
  written block is therefore the same block of `MlpSpec.G` of the argument arrays, the blocks tile the result, and the
  result array ends as `G` of the arguments.
-/
import proofs.«178637_j68487548502138_2_alg».proof.Proof.Gen.KernelIdeal.Value
import proofs.«178637_j68487548502138_2_alg».proof.Proof.KernelBody
import Idealize.ShloMosaic.Lib.StableHlo.Run
import Idealize.ShloMosaic.Lib.Pipeline.Value

noncomputable section

namespace Cert.KernelIdeal.Whole

open Cert.KernelIdeal Cert.KernelIdeal.Gen Cert.MlpSpec
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-- The result the kernel should leave on core `c`: the specification of the argument arrays as launched. -/
def spec (c : Dev nD) : S16x16384x784.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-! ## The index maps over the grid -/

/-- Every input block is the output block's mixture; the samples move with the output's quarter, and nothing else moves. -/
theorem idx_facts : ∀ t : Fin cfg0.N,
    win0_0.index t (0 : Fin 3) = win0_7.index t (0 : Fin 3) ∧ win0_0.index t (1 : Fin 3) = win0_7.index t (1 : Fin 3)
    ∧ win0_0.index t (2 : Fin 3) = 0
    ∧ win0_1.index t (0 : Fin 3) = win0_7.index t (0 : Fin 3) ∧ win0_1.index t (1 : Fin 3) = 0 ∧ win0_1.index t (2 : Fin 3) = 0
    ∧ win0_2.index t (0 : Fin 3) = win0_7.index t (0 : Fin 3) ∧ win0_2.index t (1 : Fin 3) = 0 ∧ win0_2.index t (2 : Fin 3) = 0
    ∧ win0_3.index t (0 : Fin 3) = win0_7.index t (0 : Fin 3) ∧ win0_3.index t (1 : Fin 3) = 0 ∧ win0_3.index t (2 : Fin 3) = 0
    ∧ win0_4.index t (0 : Fin 3) = win0_7.index t (0 : Fin 3) ∧ win0_4.index t (1 : Fin 3) = 0 ∧ win0_4.index t (2 : Fin 3) = 0
    ∧ win0_5.index t (0 : Fin 3) = win0_7.index t (0 : Fin 3) ∧ win0_5.index t (1 : Fin 3) = 0 ∧ win0_5.index t (2 : Fin 3) = 0
    ∧ win0_6.index t (0 : Fin 3) = win0_7.index t (0 : Fin 3) ∧ win0_6.index t (1 : Fin 3) = 0 ∧ win0_6.index t (2 : Fin 3) = 0
    ∧ win0_7.index t (0 : Fin 3) ≤ 15 ∧ win0_7.index t (1 : Fin 3) ≤ 3 ∧ win0_7.index t (2 : Fin 3) = 0 :=
  (by decide +kernel : ∀ t : Fin grid0.N, _)

/-- Every mixture and every quarter of the samples is some point's block. -/
theorem idx_onto : ∀ (q0 : Fin 16) (q1 : Fin 4), ∃ t : Fin cfg0.N, win0_7.index t = ![q0.val, q1.val, 0] :=
  (by decide +kernel : ∀ (q0 : Fin 16) (q1 : Fin 4), ∃ t : Fin grid0.N, win0_7.index t = ![q0.val, q1.val, 0])

/-! ## The arrays the host prepared, read at an index -/

/-- A bias with the unit axis the host put in reads the argument at `(n, j)`. -/
theorem bias_unit_axis {Q : ℕ} (b : (⟨2, ![16, Q]⟩ : Shape).Idx → EReal)
    (h : (⟨2, ![16, Q]⟩ : Shape).ShapeCasts ⟨3, ![16, 1, Q]⟩) (n : Fin 16) (u : Fin 1) (j : Fin Q) :
    shapeCast ⟨3, ![16, 1, Q]⟩ b h (ix3 n u j) = b (ix2 n j) :=
  shapeCast_apply b h _ _ (by
    have hu : u.val = 0 := by omega
    rw [Shape.rowMajor_val_two, Shape.rowMajor_val_three]
    show n.val * Q + j.val = (n.val * 1 + u.val) * Q + j.val
    rw [hu, Nat.mul_one, Nat.add_zero])

theorem V_v0 (c : Dev nD) : (V m c main_v0 : S16x1x256.Idx → EReal)
    = shapeCast S16x1x256 (m ((c : Thread nD τ).loc main_arg2)) Facts₀.shapeCasts_S16x256_S16x1x256 := by
  dsimp only [Gen.V, Gen.hostOps0]; after_results; rfl

theorem V_v1 (c : Dev nD) : (V m c main_v1 : S16x1x256.Idx → EReal)
    = shapeCast S16x1x256 (m ((c : Thread nD τ).loc main_arg4)) Facts₀.shapeCasts_S16x256_S16x1x256 := by
  dsimp only [Gen.V, Gen.hostOps0]; after_results; rfl

theorem V_v2 (c : Dev nD) : (V m c main_v2 : S16x1x784.Idx → EReal)
    = shapeCast S16x1x784 (m ((c : Thread nD τ).loc main_arg6)) Facts₀.shapeCasts_S16x784_S16x1x784 := by
  dsimp only [Gen.V, Gen.hostOps0]; after_results; rfl

/-- The second weight array in the narrower format is, over the extended reals, the argument itself. -/
theorem V_v3 (c : Dev nD) (i : S16x256x256.Idx) : V m c main_v3 i = m ((c : Thread nD τ).loc main_arg3) i := by
  have e : (V m c main_v3 : S16x256x256.Idx → EReal) = (m ((c : Thread nD τ).loc main_arg3) : S16x256x256.Idx → EReal) := by
    dsimp only [Gen.V, Gen.hostOps0]; after_results; rfl
  exact congrFun e i

/-- So is the third. -/
theorem V_v4 (c : Dev nD) (i : S16x256x784.Idx) : V m c main_v4 i = m ((c : Thread nD τ).loc main_arg5) i := by
  have e : (V m c main_v4 : S16x256x784.Idx → EReal) = (m ((c : Thread nD τ).loc main_arg5) : S16x256x784.Idx → EReal) := by
    dsimp only [Gen.V, Gen.hostOps0]; after_results; rfl
  exact congrFun e i

/-! ## Each window's block at a point, read where the output's block says -/

section reads
variable (c : Dev nD) (t : Fin cfg0.N) (n : Fin 16) (hn : win0_7.index t (0 : Fin 3) = n.val)
include hn

/-- The samples' block: sample `r` of the block is sample `R` of the array. -/
theorem read0 (R : Fin 16384) (r : Fin 4096) (hR : win0_7.index t (1 : Fin 3) * 4096 + r.val = R.val) (z : Fin 64) :
    iblk m c 0 t (ix3 (0 : Fin 1) r z) = m ((c : Thread nD τ).loc main_arg0) (ix3 n R z) := by
  show V m c main_arg0 (((cfg0.win 0).blk t).view.emb (ix3 (0 : Fin 1) r z)) = _
  rw [V_main_arg0]
  obtain ⟨e0, e1, e2, -⟩ := idx_facts t
  refine congrArg _ (funext fun a => Fin.ext ?_)
  match a with
  | ⟨0, _⟩ => show win0_0.index t (0 : Fin 3) * 1 + 1 * 0 = n.val; omega
  | ⟨1, _⟩ => show win0_0.index t (1 : Fin 3) * 4096 + 1 * r.val = R.val; omega
  | ⟨2, _⟩ => show win0_0.index t (2 : Fin 3) * 64 + 1 * z.val = z.val; omega

/-- The first weight block is the mixture's slice of the first weight array. -/
theorem read1 (z : Fin 64) (j : Fin 256) :
    iblk m c 1 t (ix3 (0 : Fin 1) z j) = m ((c : Thread nD τ).loc main_arg1) (ix3 n z j) := by
  show V m c main_arg1 (((cfg0.win 1).blk t).view.emb (ix3 (0 : Fin 1) z j)) = _
  rw [V_main_arg1]
  obtain ⟨-, -, -, e0, e1, e2, -⟩ := idx_facts t
  refine congrArg _ (funext fun a => Fin.ext ?_)
  match a with
  | ⟨0, _⟩ => show win0_1.index t (0 : Fin 3) * 1 + 1 * 0 = n.val; omega
  | ⟨1, _⟩ => show win0_1.index t (1 : Fin 3) * 64 + 1 * z.val = z.val; omega
  | ⟨2, _⟩ => show win0_1.index t (2 : Fin 3) * 256 + 1 * j.val = j.val; omega

/-- The first bias row is the mixture's row of the first bias. -/
theorem read2 (j : Fin 256) :
    iblk m c 2 t (ix3 (0 : Fin 1) (0 : Fin 1) j) = m ((c : Thread nD τ).loc main_arg2) (ix2 n j) := by
  show V m c main_v0 (((cfg0.win 2).blk t).view.emb (ix3 (0 : Fin 1) (0 : Fin 1) j)) = _
  obtain ⟨-, -, -, -, -, -, e0, e1, e2, -⟩ := idx_facts t
  have e : ((cfg0.win 2).blk t).view.emb (ix3 (0 : Fin 1) (0 : Fin 1) j) = ix3 n (0 : Fin 1) j :=
    funext fun a => Fin.ext (by
      match a with
      | ⟨0, _⟩ => show win0_2.index t (0 : Fin 3) * 1 + 1 * 0 = n.val; omega
      | ⟨1, _⟩ => show win0_2.index t (1 : Fin 3) * 1 + 1 * 0 = 0; omega
      | ⟨2, _⟩ => show win0_2.index t (2 : Fin 3) * 256 + 1 * j.val = j.val; omega)
  rw [e, V_v0]
  exact bias_unit_axis _ _ n 0 j

/-- The second weight block is the mixture's slice of the second weight array. -/
theorem read3 (j k : Fin 256) :
    iblk m c 3 t (ix3 (0 : Fin 1) j k) = m ((c : Thread nD τ).loc main_arg3) (ix3 n j k) := by
  show V m c main_v3 (((cfg0.win 3).blk t).view.emb (ix3 (0 : Fin 1) j k)) = _
  obtain ⟨-, -, -, -, -, -, -, -, -, e0, e1, e2, -⟩ := idx_facts t
  have e : ((cfg0.win 3).blk t).view.emb (ix3 (0 : Fin 1) j k) = ix3 n j k :=
    funext fun a => Fin.ext (by
      match a with
      | ⟨0, _⟩ => show win0_3.index t (0 : Fin 3) * 1 + 1 * 0 = n.val; omega
      | ⟨1, _⟩ => show win0_3.index t (1 : Fin 3) * 256 + 1 * j.val = j.val; omega
      | ⟨2, _⟩ => show win0_3.index t (2 : Fin 3) * 256 + 1 * k.val = k.val; omega)
  rw [e]
  exact V_v3 m c _

/-- The second bias row is the mixture's row of the second bias. -/
theorem read4 (k : Fin 256) :
    iblk m c 4 t (ix3 (0 : Fin 1) (0 : Fin 1) k) = m ((c : Thread nD τ).loc main_arg4) (ix2 n k) := by
  show V m c main_v1 (((cfg0.win 4).blk t).view.emb (ix3 (0 : Fin 1) (0 : Fin 1) k)) = _
  obtain ⟨-, -, -, -, -, -, -, -, -, -, -, -, e0, e1, e2, -⟩ := idx_facts t
  have e : ((cfg0.win 4).blk t).view.emb (ix3 (0 : Fin 1) (0 : Fin 1) k) = ix3 n (0 : Fin 1) k :=
    funext fun a => Fin.ext (by
      match a with
      | ⟨0, _⟩ => show win0_4.index t (0 : Fin 3) * 1 + 1 * 0 = n.val; omega
      | ⟨1, _⟩ => show win0_4.index t (1 : Fin 3) * 1 + 1 * 0 = 0; omega
      | ⟨2, _⟩ => show win0_4.index t (2 : Fin 3) * 256 + 1 * k.val = k.val; omega)
  rw [e, V_v1]
  exact bias_unit_axis _ _ n 0 k

/-- The third weight block is the mixture's slice of the third weight array. -/
theorem read5 (k : Fin 256) (x : Fin 784) :
    iblk m c 5 t (ix3 (0 : Fin 1) k x) = m ((c : Thread nD τ).loc main_arg5) (ix3 n k x) := by
  show V m c main_v4 (((cfg0.win 5).blk t).view.emb (ix3 (0 : Fin 1) k x)) = _
  obtain ⟨-, -, -, -, -, -, -, -, -, -, -, -, -, -, -, e0, e1, e2, -⟩ := idx_facts t
  have e : ((cfg0.win 5).blk t).view.emb (ix3 (0 : Fin 1) k x) = ix3 n k x :=
    funext fun a => Fin.ext (by
      match a with
      | ⟨0, _⟩ => show win0_5.index t (0 : Fin 3) * 1 + 1 * 0 = n.val; omega
      | ⟨1, _⟩ => show win0_5.index t (1 : Fin 3) * 256 + 1 * k.val = k.val; omega
      | ⟨2, _⟩ => show win0_5.index t (2 : Fin 3) * 784 + 1 * x.val = x.val; omega)
  rw [e]
  exact V_v4 m c _

/-- The third bias row is the mixture's row of the third bias. -/
theorem read6 (x : Fin 784) :
    iblk m c 6 t (ix3 (0 : Fin 1) (0 : Fin 1) x) = m ((c : Thread nD τ).loc main_arg6) (ix2 n x) := by
  show V m c main_v2 (((cfg0.win 6).blk t).view.emb (ix3 (0 : Fin 1) (0 : Fin 1) x)) = _
  obtain ⟨-, -, -, -, -, -, -, -, -, -, -, -, -, -, -, -, -, -, e0, e1, e2, -⟩ := idx_facts t
  have e : ((cfg0.win 6).blk t).view.emb (ix3 (0 : Fin 1) (0 : Fin 1) x) = ix3 n (0 : Fin 1) x :=
    funext fun a => Fin.ext (by
      match a with
      | ⟨0, _⟩ => show win0_6.index t (0 : Fin 3) * 1 + 1 * 0 = n.val; omega
      | ⟨1, _⟩ => show win0_6.index t (1 : Fin 3) * 1 + 1 * 0 = 0; omega
      | ⟨2, _⟩ => show win0_6.index t (2 : Fin 3) * 784 + 1 * x.val = x.val; omega)
  rw [e, V_v2]
  exact bias_unit_axis _ _ n 0 x

end reads

/-! ## What a point writes back -/

theorem hz : (![0, 0, 0] : Fin 3 → Nat) = fun _ => 0 := funext fun a => by fin_cases a <;> rfl

/-- What the body leaves in the output's staging buffer, over blocks as variables: the sigmoid of its value at the row and
    column under the buffer's index. -/
theorem out_apply (x0 : Vec Ideal S1x4096x64 .f32) (x1 : Vec Ideal S1x64x256 .f32) (x2 : Vec Ideal S1x1x256 .f32)
    (x3 : Vec Ideal S1x256x256 .bf16) (x4 : Vec Ideal S1x1x256 .f32) (x5 : Vec Ideal S1x256x784 .bf16)
    (x6 : Vec Ideal S1x1x784 .f32) (u : Fin 1) (r : Fin 4096) (x : Fin 784) :
    out0_7 x0 x1 x2 x3 x4 x5 x6 (ix3 u r x) = Ideal.logistic (k0_pay2 x0 x1 x2 x3 x4 x5 x6 (ix2 r x)) := by
  unfold out0_7
  simp only [View.ld_unit_zero (S := S1x4096x64) hz, View.ld_unit_zero (S := S1x64x256) hz,
    View.ld_unit_zero (S := S1x1x256) hz, View.ld_unit_zero (S := S1x256x256) hz, View.ld_unit_zero (S := S1x256x784) hz,
    View.ld_unit_zero (S := S1x1x784) hz]
  refine (Value.canon7_eq x0 x1 x2 x3 x4 x5 x6 (ix3 u r x)).trans ?_
  show Ideal.logistic (k0_pay2 x0 x1 x2 x3 x4 x5 x6 (Value.ix7_0 (ix3 u r x))) = _
  refine congrArg (fun i => Ideal.logistic (k0_pay2 x0 x1 x2 x3 x4 x5 x6 i)) (funext fun a => Fin.ext ?_)
  match a with
  | ⟨0, _⟩ => rfl
  | ⟨1, _⟩ => rfl

/-- Point `t` writes back block `t` of the specification. -/
theorem flushed_eq (c : Dev nD) (t : Fin cfg0.N) :
    (dats m 0 c).flushed 7 t = ((cfg0.win 7).blk t).view.read (Elt Ideal) (spec m c) := by
  rw [Value.flushed7]
  funext y
  obtain ⟨u, r, x, rfl⟩ : ∃ (u : Fin 1) (r : Fin 4096) (x : Fin 784), y = ix3 u r x :=
    ⟨y 0, y 1, y 2, eq_ix3 (n0 := 1) (n1 := 4096) (n2 := 784) y⟩
  obtain ⟨-, -, -, -, -, -, -, -, -, -, -, -, -, -, -, -, -, -, -, -, -, b0, b1, b2⟩ := idx_facts t
  have hu : u.val = 0 := by omega
  have hr : r.val < 4096 := r.isLt
  let n : Fin 16 := ⟨win0_7.index t (0 : Fin 3), by omega⟩
  let R : Fin 16384 := ⟨win0_7.index t (1 : Fin 3) * 4096 + r.val, by omega⟩
  have ei : ((cfg0.win 7).blk t).view.emb (ix3 u r x) = ix3 n R x :=
    funext fun a => Fin.ext (by
      match a with
      | ⟨0, _⟩ => show win0_7.index t (0 : Fin 3) * 1 + 1 * u.val = win0_7.index t (0 : Fin 3); omega
      | ⟨1, _⟩ => show win0_7.index t (1 : Fin 3) * 4096 + 1 * r.val = win0_7.index t (1 : Fin 3) * 4096 + r.val; omega
      | ⟨2, _⟩ => show win0_7.index t (2 : Fin 3) * 784 + 1 * x.val = x.val; omega)
  show out0_7 (iblk m c 0 t) (iblk m c 1 t) (iblk m c 2 t) (iblk m c 3 t) (iblk m c 4 t) (iblk m c 5 t) (iblk m c 6 t) (ix3 u r x)
    = spec m c (((cfg0.win 7).blk t).view.emb (ix3 u r x))
  rw [ei]
  refine (out_apply (iblk m c 0 t) (iblk m c 1 t) (iblk m c 2 t) (iblk m c 3 t) (iblk m c 4 t) (iblk m c 5 t) (iblk m c 6 t) u r x).trans ?_
  show _ = Ideal.logistic (pre _ _ _ _ _ _ _ n R x)
  refine congrArg Ideal.logistic ?_
  exact Body.pre_of_blocks _ _ _ _ _ _ _ (iblk m c 0 t) (iblk m c 1 t) (iblk m c 2 t) (iblk m c 3 t) (iblk m c 4 t)
    (iblk m c 5 t) (iblk m c 6 t) n R r
    (fun z => read0 m c t n rfl R r rfl z) (fun z j => read1 m c t n rfl z j) (fun j => read2 m c t n rfl j)
    (fun j k => read3 m c t n rfl j k) (fun k => read4 m c t n rfl k) (fun k x => read5 m c t n rfl k x)
    (fun x => read6 m c t n rfl x) x

/-! ## The blocks tile the result -/

/-- An index of the result is in point `t`'s block iff each coordinate is in the block's range on its axis. -/
theorem mem_blk (t : Fin cfg0.N) (i : S16x16384x784.Idx) :
    i ∈ ((cfg0.win 7).blk t).view.set ↔ ∀ a : Fin 3, win0_7.index t a * S1x4096x784.size a ≤ (i a).val
      ∧ (i a).val < win0_7.index t a * S1x4096x784.size a + S1x4096x784.size a := by
  show i ∈ ((View.whole main_v5).slice (win0_7.rect t)).set ↔ _
  rw [View.set_slice_whole, Rect.mem_set_unit]
  exact Iff.rfl

/-- Every index of the result is in the block of the point of its mixture and its quarter of the samples. -/
theorem cover (i : S16x16384x784.Idx) :
    ∃ t : Fin cfg0.N, (cfg0.win 7).flush t = true ∧ i ∈ ((cfg0.win 7).blk t).view.set := by
  have hi0 : (i 0).val < 16 := (i 0).isLt
  have hi1 : (i 1).val < 16384 := (i 1).isLt
  have hi2 : (i 2).val < 784 := (i 2).isLt
  obtain ⟨t, ht⟩ := idx_onto ⟨(i 0).val, hi0⟩ ⟨(i 1).val / 4096, by omega⟩
  have q0 : win0_7.index t (0 : Fin 3) = (i 0).val := congrFun ht 0
  have q1 : win0_7.index t (1 : Fin 3) = (i 1).val / 4096 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 4096 ≤ (i 1).val ∧ (i 1).val < win0_7.index t (1 : Fin 3) * 4096 + 4096; omega
  | ⟨2, _⟩ => show win0_7.index t (2 : Fin 3) * 784 ≤ (i 2).val ∧ (i 2).val < win0_7.index t (2 : Fin 3) * 784 + 784; omega

/-- The result array after the run is the specification of the argument arrays. -/
theorem final (c : Dev nD) : (dats m 0 c).arrAt 7 cfg0.N = spec m c :=
  (dats m 0 c).arrAt_eq_of_cover 7 (spec m c) (fun t _ => flushed_eq m c t) cover

/-- Every weakly fair execution of the idealized kernel ends with the result at the specification and the arguments
    unchanged. -/
theorem run : θ_run defs (onTc (τ := τ) (main (F := Ideal))) ⟨m, fun _ => 0, ρ⟩ fun r => ∀ c : Dev nD,
      r.2.mem ((c : Thread nD τ).loc main_v5) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Whole

end
-- ==== Proof.lean ====
/-
  A mixture of sixteen three-layer decoders, tiled over the samples, against the same network written with batched
  contractions.

  For mixture `n`, sample `r` and output coordinate `x` both programs compute
    σ (Σ k, h₂ k · W₃ (n, k, x) + b₃ (n, x)),   h₂ k = max (Σ j, h₁ j · W₂ (n, j, k) + b₂ (n, k)) 0,
    h₁ j = max (Σ z, s (n, r, z) · W₁ (n, z, j) + b₁ (n, j)) 0,   σ y = 1 / (1 + e⁻ʸ).
  The kernel works on one mixture and one quarter of the samples at a time, feeds the two hidden activations and the
  last two weight arrays to its products in a narrower float format, and applies the sigmoid as one operation; the
  reference contracts whole arrays and spells the sigmoid out.  Over the extended reals a change of format is the
  identity, a product into a zero accumulator is the plain finite sum the reference's contraction is, and the sigmoid is
  by definition the expression the reference spells, so the two results are one function of the arguments
  (`MlpSpec.G`), index by index.  No law is used that could fail at an infinity, and the precondition is not opened.

  The kernel side: `KernelBody` (the body's value on one block, entry by entry) and `KernelArray` (each written
  block is a block of `G`, and the blocks tile the result).  The reference side: `RefValue`.  The idealized kernel is
  the kernel's own text read over the extended reals: nothing was rewritten, so there is nothing to preserve.
-/
import proofs.«178637_j68487548502138_2_alg».proof.Defs
import proofs.«178637_j68487548502138_2_alg».proof.Proof.Gen.Kernel
import proofs.«178637_j68487548502138_2_alg».proof.Proof.Gen.Kernel.Skeleton
import proofs.«178637_j68487548502138_2_alg».proof.Proof.Gen.Kernel.Launch
import proofs.«178637_j68487548502138_2_alg».proof.Proof.Gen.Kernel.Points
import proofs.«178637_j68487548502138_2_alg».proof.Proof.Gen.Kernel.Frame
import proofs.«178637_j68487548502138_2_alg».proof.Proof.Gen.KernelIdeal
import proofs.«178637_j68487548502138_2_alg».proof.Proof.Gen.KernelIdeal.Skeleton
import proofs.«178637_j68487548502138_2_alg».proof.Proof.Gen.KernelIdeal.Launch
import proofs.«178637_j68487548502138_2_alg».proof.Proof.Gen.KernelIdeal.Points
import proofs.«178637_j68487548502138_2_alg».proof.Proof.Gen.KernelIdeal.Frame
import proofs.«178637_j68487548502138_2_alg».proof.Proof.Gen.ReferenceIdeal
import proofs.«178637_j68487548502138_2_alg».proof.Proof.Gen.Pre_finite_inputs
import proofs.«178637_j68487548502138_2_alg».proof.Proof.Gen.KernelIdeal.Value
import proofs.«178637_j68487548502138_2_alg».proof.Proof.Gen.ReferenceIdeal.Run
import proofs.«178637_j68487548502138_2_alg».proof.Proof.Gen.ReferenceIdeal.Read
import proofs.«178637_j68487548502138_2_alg».proof.Proof.RefValue
import proofs.«178637_j68487548502138_2_alg».proof.Proof.KernelArray
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten in the kernel's text, so there is nothing to preserve. -/
theorem preserves : Cert.preserves_Kernel_KernelIdeal := trivial

/-- From memories that agree on the arguments, the kernel's result array and the reference's both end at
    `MlpSpec.G` of the arguments. -/
theorem algebraic : Cert.algebraic_KernelIdeal_ReferenceIdeal := by
  intro m ρ m' ρ' _ hagree
  refine ⟨fun c => Cert.KernelIdeal.Whole.spec m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.ref_eq,
    (hagree c).1, (hagree c).2.1, (hagree c).2.2.1, (hagree c).2.2.2.1, (hagree c).2.2.2.2.1,
    (hagree c).2.2.2.2.2.1, (hagree c).2.2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
